-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x3 .f32) (main_arg5 : FVec F S3 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x3 .f32 := Host.absf main_arg4
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x3 : Shape := ⟨2, ![128, 3]⟩
abbrev S3 : Shape := ⟨1, ![3]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x64 : Shape := ⟨2, ![2000, 64]⟩
abbrev S2000x128 : Shape := ⟨2, ![2000, 128]⟩
abbrev S850000x128 : Shape := ⟨2, ![850000, 128]⟩
abbrev S50000x3 : Shape := ⟨2, ![50000, 3]⟩
abbrev S5000x128 : Shape := ⟨2, ![5000, 128]⟩
abbrev S5000x3 : Shape := ⟨2, ![5000, 3]⟩
abbrev S1x128 : Shape := ⟨2, ![1, 128]⟩
abbrev S850000x3 : Shape := ⟨2, ![850000, 3]⟩
abbrev S1x3 : Shape := ⟨2, ![1, 3]⟩
abbrev S5000 : Shape := ⟨1, ![5000]⟩
abbrev S5000x1 : Shape := ⟨2, ![5000, 1]⟩

abbrev nBuf : Space → Nat
  | .hbm => 81
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x3, .f32⟩
  | .hbm, ⟨5, _⟩ => ⟨S3, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x3, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x3, .f32⟩
  | .hbm, ⟨73, _⟩ => ⟨S850000x1, .f32⟩
  | .hbm, ⟨74, _⟩ => ⟨S850000x3, .f32⟩
  | .hbm, ⟨75, _⟩ => ⟨S850000x3, .f32⟩
  | .hbm, ⟨76, _⟩ => ⟨S_, .f32⟩
  | .hbm, ⟨77, _⟩ => ⟨S50000x3, .f32⟩
  | .hbm, ⟨78, _⟩ => ⟨S850000x1, .i32⟩
  | .hbm, ⟨79, _⟩ => ⟨S50000x3, .f32⟩
  | .hbm, ⟨80, _⟩ => ⟨S50000x3, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x3, .f32⟩
  | .local _ .vmem, ⟨9, _⟩ => ⟨S5000x3, .f32⟩
  | .local _ .vmem, ⟨10, _⟩ => ⟨S5000x3, .f32⟩
  | .local _ .vmem, ⟨11, _⟩ => ⟨S5000x3, .f32⟩
  | .local _ .vmem, ⟨12, _⟩ => ⟨S5000x3, .f32⟩
  | .local _ .vmem, ⟨13, _⟩ => ⟨S3, .f32⟩
  | .local _ .vmem, ⟨14, _⟩ => ⟨S5000x3, .f32⟩
  | .local _ .vmem, ⟨15, _⟩ => ⟨S5000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x3_S128x3_0_0 : ∀ a, (![0, 0] : Fin 2 → Nat) a + S128x3.size a ≤ S128x3.size a
  h_S128x3 : 0 < S128x3.numel
  inb_S5000x3_S5000x3_0_0 : ∀ a, (![0, 0] : Fin 2 → Nat) a + S5000x3.size a ≤ S5000x3.size a
  h_S5000x3 : 0 < S5000x3.numel
  bcast_S850000x1_S850000x3_0_1 : S850000x1.BroadcastsInDim S850000x3 (![0, 1] : Fin 2 → Fin S850000x3.rank)
  bcast_S_S50000x3 : S_.BroadcastsInDim S50000x3 (![] : Fin 0 → Fin S50000x3.rank)
  shapeCasts_S5000x3_S5000x3 : S5000x3.ShapeCasts S5000x3
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  reduces_S5000x3_S5000 : S5000x3.Reduces [1] S5000
  shapeCasts_S5000_S5000x1 : S5000.ShapeCasts S5000x1
  broadcasts_S5000x1_S5000x3 : S5000x1.Broadcasts S5000x3
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x64_S64x128_S2000x128_1_0_0_1_n_n_wf : DotDims.WF S2000x64 S64x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x3_S5000x3_1_0_0_1_n_n_wf : DotDims.WF S5000x128 S128x3 S5000x3 [1] [0] [0] [1] [] []
  gather_S50000x3_S850000x1_S850000x3_1_0_n_n_0_1_13_wf : GatherDims.WF S50000x3 S850000x1 S850000x3 [1] [0] [] [0] [] 1 ![1, 3]
  scatter_S50000x3_S850000x1_S850000x3_1_0_0_1_wf : ScatterDims.WF S50000x3 S850000x1 S850000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x3.size a ≤ S128x3.size a
  hwx1_2 : ∀ i : grid1.Coords, EltTy.bits .f32 = 32 ∨ (Rect.block (s := S128x3) S128x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x3.size a ≤ S50000x3.size a
  hwx1_3 : ∀ i : grid1.Coords, EltTy.bits .f32 = 32 ∨ (Rect.block (s := S50000x3) S5000x3.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x3.size a ≤ S50000x3.size a
  hwx2_0 : ∀ i : grid2.Coords, EltTy.bits .f32 = 32 ∨ (Rect.block (s := S50000x3) S5000x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3.size a ≤ S3.size a
  hwx2_1 : ∀ i : grid2.Coords, EltTy.bits .f32 = 32 ∨ (Rect.block (s := S3) S3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S50000x3.size a
  hwx2_2 : ∀ i : grid2.Coords, EltTy.bits .f32 = 32 ∨ (Rect.block (s := S50000x3) S5000x3.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S50000x3_S850000x1_S850000x3_1_0_n_n_0_1_13 : GatherDims S50000x3 S850000x1 S850000x3 where
  offsetDims := [1]
  collapsedSliceDims := [0]
  operandBatchingDims := []
  startIndicesBatchingDims := []
  startIndexMap := [0]
  indexVectorDim := 1
  sliceSizes := ![1, 3]
  wf := gather_S50000x3_S850000x1_S850000x3_1_0_n_n_0_1_13_wf
def scatter_S50000x3_S850000x1_S850000x3_1_0_0_1 : ScatterDims S50000x3 S850000x1 S850000x3 where
  updateWindowDims := [1]
  insertedWindowDims := [0]
  scatterDimsToOperandDims := [0]
  indexVectorDim := 1
  wf := scatter_S50000x3_S850000x1_S850000x3_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x3.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x3 : Shape := ⟨2, ![128, 3]⟩
abbrev S3 : Shape := ⟨1, ![3]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x3 : Shape := ⟨2, ![50000, 3]⟩
abbrev S850000x3 : Shape := ⟨2, ![850000, 3]⟩
abbrev S1x3 : Shape := ⟨2, ![1, 3]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x3, .f32⟩
  | .hbm, ⟨5, _⟩ => ⟨S3, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x3, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x3, .f32⟩
  | .hbm, ⟨79, _⟩ => ⟨S850000x1, .f32⟩
  | .hbm, ⟨80, _⟩ => ⟨S850000x3, .f32⟩
  | .hbm, ⟨81, _⟩ => ⟨S850000x3, .f32⟩
  | .hbm, ⟨82, _⟩ => ⟨S_, .f32⟩
  | .hbm, ⟨83, _⟩ => ⟨S50000x3, .f32⟩
  | .hbm, ⟨84, _⟩ => ⟨S850000x1, .i32⟩
  | .hbm, ⟨85, _⟩ => ⟨S50000x3, .f32⟩
  | .hbm, ⟨86, _⟩ => ⟨S1x3, .f32⟩
  | .hbm, ⟨87, _⟩ => ⟨S50000x3, .f32⟩
  | .hbm, ⟨88, _⟩ => ⟨S50000x3, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x3, .f32⟩
  | .hbm, ⟨96, _⟩ => ⟨S50000x3, .f32⟩
  | .hbm, ⟨97, _⟩ => ⟨S50000x3, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x3, .f32⟩
  | .hbm, ⟨103, _⟩ => ⟨S50000x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x3_0_1 : S850000x1.BroadcastsInDim S850000x3 (![0, 1] : Fin 2 → Fin S850000x3.rank)
  bcast_S_S50000x3 : S_.BroadcastsInDim S50000x3 (![] : Fin 0 → Fin S50000x3.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  reducesTo_S50000x3_S50000_d1 : S50000x3.ReducesTo [1] S50000
  h_S_ : 0 < S_.numel
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x3_S50000x3_1_0_0_1_n_n_wf : DotDims.WF S50000x128 S128x3 S50000x3 [1] [0] [0] [1] [] []
  gather_S50000x3_S850000x1_S850000x3_1_0_n_n_0_1_13_wf : GatherDims.WF S50000x3 S850000x1 S850000x3 [1] [0] [] [0] [] 1 ![1, 3]
  scatter_S50000x3_S850000x1_S850000x3_1_0_0_1_wf : ScatterDims.WF S50000x3 S850000x1 S850000x3 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf
def gather_S50000x3_S850000x1_S850000x3_1_0_n_n_0_1_13 : GatherDims S50000x3 S850000x1 S850000x3 where
  offsetDims := [1]
  collapsedSliceDims := [0]
  operandBatchingDims := []
  startIndicesBatchingDims := []
  startIndexMap := [0]
  indexVectorDim := 1
  sliceSizes := ![1, 3]
  wf := gather_S50000x3_S850000x1_S850000x3_1_0_n_n_0_1_13_wf
def scatter_S50000x3_S850000x1_S850000x3_1_0_0_1 : ScatterDims S50000x3 S850000x1 S850000x3 where
  updateWindowDims := [1]
  insertedWindowDims := [0]
  scatterDimsToOperandDims := [0]
  indexVectorDim := 1
  wf := scatter_S50000x3_S850000x1_S850000x3_1_0_0_1_wf

class Facts : Prop extends Facts₀ where

variable [Facts]
-- ==== Proof.KernelRun.lean ====
/-
  The kernel program's run with its RESULT read: from any memory, every weakly fair execution of @main ends with the result array
  holding the contents of the last segment boundary (the third pallas_call's exit) at the result's buffer, and the six argument
  arrays as launched.

  @main is eight segments — three stretches of host lines, a pallas_call, a stretch, a pallas_call, a stretch, a pallas_call — and
  the contents at each boundary are a fold from the launch memory (a stretch: the lines' results over what was there; a
  pallas_call: its arrays at what the write-backs leave). The launch over the segments ends with every unscoped buffer at the last
  boundary's contents; the frame certificate reads the arguments there, and the result is read the same way.
-/
import proofs.«172793_j37443524886863_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's contents
    and the arguments as launched. -/
theorem run_result : θ_run defs (onTc (τ := τ) (main (F := F))) ⟨m, fun _ => 0, ρ⟩ (fun r => ∀ c : Dev nD,
      r.2.mem ((c.tc : Thread nD τ).loc main_v58) = W8 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v58 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.Graph.lean ====
/-
  The graph side of the two-layer convolution, named once: the functions the host lines between the dense stages compute, over
  any float values. Both programs spell these lines alike (the kernel's program between its pallas_calls, the reference
  between its matrix products), so they are carried as names and never opened.

  From the 2 × 800000 edge list `e`:  `rowIdx e` and `colIdx e` are the source and target node of each of the 850000 edges (the
  800000 given ones, then one self loop per node);  `degree col` counts, per node, the edges that arrive there;  `invSqrtDeg col`
  is degree^(-1/2) where the degree is positive and 0 elsewhere;  `wrap ix` turns a negative index into the index counted from
  the end;  `edgeWeight row col` is, per edge, the product of the inverse root degrees of its two ends.
  From per-node rows `h`:  `spread128 row col wgt h` (and `spread3`, for rows of 3) takes for every edge the row of its source,
  scales it by the edge's weight, and sums into every node the scaled rows of the edges that arrive there.
-/
import proofs.«172793_j37443524886863_1_alg».proof.KernelIdeal
import proofs.«172793_j37443524886863_1_alg».proof.Proof.Gen.KernelIdeal

noncomputable section

namespace Cert.KernelIdeal.Graph

open Cert.KernelIdeal Cert.KernelIdeal.Gen Idealize.ShloMosaic

variable {F : FTy → Type} [FloatOps F]

/-- The source node of every edge: row 0 of the edge list, then the nodes themselves (self loops). -/
def rowIdx (e : IVec S2x800000 32) : IVec S850000 32 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The target node of every edge: row 1 of the edge list, then the nodes themselves. -/
def colIdx (e : IVec S2x800000 32) : IVec S850000 32 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- Per node, the number of edges arriving there: ones summed into zeros at the targets. -/
def degree (col : IVec S850000 32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 col) (broadcastInDim S850000 ![] bcast_S_S850000 (constant S_ .f32 0x3F800000#32))

/-- Per node, degree^(-1/2) where the degree is positive, 0 elsewhere. -/
def invSqrtDeg (col : IVec S850000 32) : FVec F S50000 .f32 :=
  select (cmpf (F := F) .ogt (degree col) (broadcastInDim S50000 ![] bcast_S_S50000 (constant S_ .f32 0x00000000#32)))
    (Host.rsqrt (degree col)) (broadcastInDim S50000 ![] bcast_S_S50000 (id (constant S_ .f32 0x00000000#32)))

/-- A negative index counts from the end: 50000 is added to it. -/
def wrap (ix : IVec S850000 32) : IVec S850000 32 :=
  select (cmpi .slt ix (broadcastInDim S850000 ![] bcast_S_S850000 (constantI S_ 32 0#32)))
    (addi ix (broadcastInDim S850000 ![] bcast_S_S850000 (constantI S_ 32 50000#32))) ix

/-- Per edge, the product of the inverse root degrees of its source and of its target. -/
def edgeWeight (row col : IVec S850000 32) : FVec F S850000 .f32 :=
  mulf (Host.gather gather_S50000_S850000x1_S850000_n_0_n_n_0_1_1 (invSqrtDeg col) (broadcastInDim S850000x1 ![0] bcast_S850000_S850000x1_0 (wrap row)))
    (Host.gather gather_S50000_S850000x1_S850000_n_0_n_n_0_1_1 (invSqrtDeg col) (broadcastInDim S850000x1 ![0] bcast_S850000_S850000x1_0 (wrap col)))

/-- Rows of 128: every edge takes the row of its source, scaled by the edge's weight; every node sums the rows arriving. -/
def spread128 (row col : IVec S850000 32) (wgt : FVec F S850000 .f32) (h : FVec F S50000x128 .f32) : FVec F S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 col)
    (mulf (Host.gather gather_S50000x128_S850000x1_S850000x128_1_0_n_n_0_1_1128 h (broadcastInDim S850000x1 ![0] bcast_S850000_S850000x1_0 (wrap row)))
      (broadcastInDim S850000x128 ![0, 1] bcast_S850000x1_S850000x128_0_1 (broadcastInDim S850000x1 ![0] bcast_S850000_S850000x1_0 wgt)))

/-- Rows of 3: the same. -/
def spread3 (row col : IVec S850000 32) (wgt : FVec F S850000 .f32) (h : FVec F S50000x3 .f32) : FVec F S50000x3 .f32 :=
  Host.scatterAdd scatter_S50000x3_S850000x1_S850000x3_1_0_0_1 (broadcastInDim S50000x3 ![] bcast_S_S50000x3 (constant S_ .f32 0x00000000#32))
    (broadcastInDim S850000x1 ![0] bcast_S850000_S850000x1_0 col)
    (mulf (Host.gather gather_S50000x3_S850000x1_S850000x3_1_0_n_n_0_1_13 h (broadcastInDim S850000x1 ![0] bcast_S850000_S850000x1_0 (wrap row)))
      (broadcastInDim S850000x3 ![0, 1] bcast_S850000x1_S850000x3_0_1 (broadcastInDim S850000x1 ![0] bcast_S850000_S850000x1_0 wgt)))

end Cert.KernelIdeal.Graph

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.LibRows.lean ====
/-
  General facts about arrays of extended reals read at an entry, used by the layer and head lemmas:
  a host matrix product M × K by K × N at entry (a, b) is the sum over c of A (a, c) · B (c, b) (the same sum a
  matmul into the zero accumulator gives); a length-N vector laid out as one row and repeated down M rows reads,
  at (a, b), the vector at b; a length-M vector laid out as one column and repeated across N columns reads the
  vector at a; a scalar repeated over any shape reads the scalar; and a sum over 192 terms is the sum of its
  three consecutive runs of 64.
-/
import Idealize.ShloMosaic.Lib.ValueIdx
import Idealize.ShloMosaic.Lib.ValueLayout
import Idealize.ShloMosaic.Lib.Pipeline.Value
import Idealize.ShloMosaic.PureOps.Ideal.Laws
import proofs.«172793_j37443524886863_1_alg».proof.Proof.LibMatmul

noncomputable section

open scoped BigOperators

namespace Cert.LibRows

open Idealize.ShloMosaic Idealize.ShloMosaic.ValueIdx

/-- The contraction sum of a plain M × K by K × N product at entry `(a, b)`, re-indexed by the contracted
    coordinate: `∑ c, A (a, c) · B (c, b)`. -/
theorem plain_contr_sum {M K N : Nat} {φ₁ φ₂ : FTy}
    (A : FVec Ideal ⟨2, ![M, K]⟩ φ₁) (B : FVec Ideal ⟨2, ![K, N]⟩ φ₂) (a : Fin M) (b : Fin N) :
    (∑ k : (DotDims.plain M K N).contr.Idx,
        A ((DotDims.plain M K N).lhsIdx (ix2 a b) k) * B ((DotDims.plain M K N).rhsIdx (ix2 a b) k))
      = ∑ c : Fin K, A (ix2 a c) * B (ix2 c b) :=
  (Ideal.matmul_constant_zero_apply (DotDims.plain M K N) none A B (ix2 a b)).symm.trans
    (Cert.LibMatmul.matmul_plain_zero_apply none A B a b)

/-- A host `dot_general` of an M × K by a K × N matrix, at the exact values and at entry `(a, b)`, is
    `∑ c, A (a, c) · B (c, b)`. -/
theorem dotGeneral_plain_apply {M K N : Nat} {φ₁ φ₂ : FTy} (prec : Option ContractPrecision) (sched : HostSchedule)
    (A : FVec Ideal ⟨2, ![M, K]⟩ φ₁) (B : FVec Ideal ⟨2, ![K, N]⟩ φ₂) (a : Fin M) (b : Fin N) :
    FloatOps.dotGeneral (DotDims.plain M K N) prec sched A B (ix2 a b) = ∑ c : Fin K, A (ix2 a c) * B (ix2 c b) :=
  (Ideal.dotGeneral_apply (DotDims.plain M K N) prec sched A B (ix2 a b)).trans (plain_contr_sum A B a b)

variable {α : Type}

/-- A vector of length N cast to one row and repeated down M rows: entry `(a, b)` is the vector's entry `b`. -/
theorem rowBroadcastTo_apply {M N : Nat} (v : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (a : Fin M) (b : Fin N) :
    broadcastTo ⟨2, ![M, N]⟩ (shapeCast ⟨2, ![1, N]⟩ v h1) h2 (ix2 a b) = v (ix1 b) := by
  rw [broadcastTo_apply _ h2 (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact shapeCast_a_1a_apply v h1 0 b

/-- The host form of the same: a vector placed along axis 1 of a 1 × N array, then along both axes of an M × N one. -/
theorem rowBroadcastInDim_apply {M N : Nat} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (a : Fin M) (b : Fin N) :
    broadcastInDim ⟨2, ![M, N]⟩ ![0, 1] h2 (broadcastInDim ⟨2, ![1, N]⟩ ![1] h1 v) (ix2 a b) = v (ix1 b) := by
  rw [broadcastInDim_apply ![0, 1] h2 _ (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)]
  exact broadcastInDim_apply ![1] h1 v (ix2 (0 : Fin 1) b) (ix1 b) (fun c => by
    match c with
    | ⟨0, _⟩ =>
      show b.val = if N = 1 then 0 else b.val
      split
      · have := b.isLt; omega
      · rfl)

/-- A vector of length M cast to one column and repeated across N columns: entry `(a, b)` is the vector's entry `a`. -/
theorem colBroadcastTo_apply {M N : Nat} (v : (⟨1, ![M]⟩ : Shape).Idx → α)
    (h1 : (⟨1, ![M]⟩ : Shape).ShapeCasts ⟨2, ![M, 1]⟩) (h2 : (⟨2, ![M, 1]⟩ : Shape).Broadcasts ⟨2, ![M, N]⟩)
    (a : Fin M) (b : Fin N) :
    broadcastTo ⟨2, ![M, N]⟩ (shapeCast ⟨2, ![M, 1]⟩ v h1) h2 (ix2 a b) = v (ix1 a) := by
  rw [broadcastTo_apply _ h2 (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact shapeCast_apply v h1 _ _ (by
    rw [Shape.rowMajor_val_two, Shape.rowMajor_val_one]
    show a.val = a.val * 1 + 0
    omega)

/-- The host form: a vector placed along axis 0 of an M × 1 array, then along both axes of an M × N one. -/
theorem colBroadcastInDim_apply {M N : Nat} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (a : Fin M) (b : Fin N) :
    broadcastInDim ⟨2, ![M, N]⟩ ![0, 1] h2 (broadcastInDim ⟨2, ![M, 1]⟩ ![0] h1 v) (ix2 a b) = v (ix1 a) := by
  rw [broadcastInDim_apply ![0, 1] h2 _ (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])]
  exact broadcastInDim_apply ![0] h1 v (ix2 a (0 : Fin 1)) (ix1 a) (fun c => by
    match c with
    | ⟨0, _⟩ =>
      show a.val = if M = 1 then 0 else a.val
      split
      · have := a.isLt; omega
      · rfl)

/-- A scalar placed along no axis of any shape reads the scalar everywhere. -/
theorem splatInDim_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 (fun c => c.elim0)

/-- Putting coordinate `k` back on axis 1 of a row index `g` gives the entry `(g, k)`. -/
theorem lift_axis1 {m n : Nat} (h : (⟨2, ![m, n]⟩ : Shape).Reduces [1] (⟨1, ![m]⟩ : Shape)) (g : Fin m)
    (k : Fin ((⟨2, ![m, n]⟩ : Shape).size 1)) : h.lift (ix1 g) k = ix2 g (⟨k.val, k.isLt⟩ : Fin n) := by
  funext c; apply Fin.ext
  fin_cases c <;> rfl

/-- A sum of 192 terms is the sum of its three consecutive runs of 64 terms. -/
theorem sum_192_split {M : Type*} [AddCommMonoid M] (f : Fin 192 → M) :
    ∑ k : Fin 192, f k
      = (∑ k : Fin 64, f ⟨k.val, by omega⟩) + (∑ k : Fin 64, f ⟨64 + k.val, by omega⟩)
        + ∑ k : Fin 64, f ⟨128 + k.val, by omega⟩ := by
  have e : ∑ k : Fin 192, f k = ∑ k : Fin (64 + 64 + 64), f (k.cast (by norm_num)) := by
    exact (Fin.castOrderIso (by norm_num : 64 + 64 + 64 = 192)).toEquiv.sum_comp f |>.symm
  rw [e, Fin.sum_univ_add, Fin.sum_univ_add]
  rfl

end Cert.LibRows

end
-- ==== Proof.LibLogSoftmax.lean ====
/-
  The log-softmax of the rows of an M × N array of extended reals, read at one entry, in the two spellings programs use.

  For a row z the value at column q is  (z q − m) − log ∑ k, exp (z k − m)  with m the maximum of the row taken from −∞
  (`logSoftmaxRow`, `rowMax`). A kernel spells it with lane reductions along axis 1 (maximum from −∞, sum from 0), each
  result cast to a column and repeated across the N columns (`kernel_apply`); a host program with `reduce` along axis 1 — a
  maximum from −∞ that is then once more compared with −∞, and a sum from 0 — each result placed along axis 0 of an M × 1
  array and then along both axes of the M × N one (`host_apply`). At the exact values both read `logSoftmaxRow` of the row:
  a maximum from −∞ is not below −∞, and zero added to a sum is the sum.
-/
import Idealize.ShloMosaic.Lib.ValueIdx
import Idealize.ShloMosaic.Lib.ValueLayout
import Idealize.ShloMosaic.Lib.Pipeline.Value
import Idealize.ShloMosaic.PureOps.Ideal.Laws
import Mathlib.Data.Finset.Fold
import proofs.«172793_j37443524886863_1_alg».proof.Proof.LibRows

noncomputable section

open scoped BigOperators

namespace Cert.LibLogSoftmax

open Idealize.ShloMosaic Idealize.ShloMosaic.ValueIdx

/-- The largest entry of a row, from −∞. -/
def rowMax {N : Nat} (z : Fin N → EReal) : EReal := (Finset.univ : Finset (Fin N)).fold max (Ideal.ofBits .f32 0xFF800000#32) z

/-- The log-softmax of one row at entry `q`: shift by the maximum, subtract the log of the sum of the exponentials. -/
def logSoftmaxRow {N : Nat} (z : Fin N → EReal) (q : Fin N) : EReal :=
  (z q - rowMax z) - Ideal.log (∑ k : Fin N, Ideal.exp (z k - rowMax z))

/-- A maximum taken from −∞ is not below −∞: comparing it once more with −∞ changes nothing. -/
theorem max_bot_rowMax {N : Nat} (z : Fin N → EReal) : max (Ideal.ofBits .f32 0xFF800000#32) (rowMax z) = rowMax z :=
  max_eq_right ((Finset.le_fold_max _).mpr (Or.inl le_rfl))

/-- A lane maximum along axis 1, from −∞, at row `p` is the row's maximum. -/
theorem laneMax_apply {M N : Nat} (z : FVec Ideal ⟨2, ![M, N]⟩ .f32) (hr : (⟨2, ![M, N]⟩ : Shape).Reduces [1] ⟨1, ![M]⟩)
    (hφ : FKind.Formats .f32) (hacc : (0xFF800000#32 : BitVec (FTy.bits .f32)) = FKind.maximumf.neutral .f32 hφ) (p : Fin M) :
    multiReduction .maximumf [1] ⟨1, ![M]⟩ z 0xFF800000#32 hr hφ hacc (ix1 p) = rowMax (fun k : Fin N => z (ix2 p k)) := by
  rw [Ideal.multiReduction_maximumf_single]
  have e : (z ∘ hr.lift (ix1 p)) = fun k : Fin N => z (ix2 p k) := funext fun k => congrArg z (Cert.LibRows.lift_axis1 hr p k)
  rw [e]; rfl

/-- A lane sum along axis 1, from zero, at row `p` is the sum of the row. -/
theorem laneSum_apply {M N : Nat} (z : FVec Ideal ⟨2, ![M, N]⟩ .f32) (hr : (⟨2, ![M, N]⟩ : Shape).Reduces [1] ⟨1, ![M]⟩)
    (hφ : FKind.Formats .f32) (hacc : (0x00000000#32 : BitVec (FTy.bits .f32)) = FKind.add.neutral .f32 hφ) (p : Fin M) :
    multiReduction .add [1] ⟨1, ![M]⟩ z 0x00000000#32 hr hφ hacc (ix1 p) = ∑ k : Fin N, z (ix2 p k) := by
  rw [Ideal.multiReduction_add_single]
  exact Finset.sum_congr rfl fun k _ => congrArg z (Cert.LibRows.lift_axis1 hr p k)

/-- THE KERNEL'S SPELLING at entry `(p, q)` is the log-softmax of row `p`. -/
theorem kernel_apply {M N : Nat} (z : FVec Ideal ⟨2, ![M, N]⟩ .f32) (hr : (⟨2, ![M, N]⟩ : Shape).Reduces [1] ⟨1, ![M]⟩)
    (hc : (⟨1, ![M]⟩ : Shape).ShapeCasts ⟨2, ![M, 1]⟩) (hb : (⟨2, ![M, 1]⟩ : Shape).Broadcasts ⟨2, ![M, N]⟩)
    (hφ : FKind.Formats .f32) (hmax : (0xFF800000#32 : BitVec (FTy.bits .f32)) = FKind.maximumf.neutral .f32 hφ)
    (hadd : (0x00000000#32 : BitVec (FTy.bits .f32)) = FKind.add.neutral .f32 hφ) (p : Fin M) (q : Fin N) :
    subf (subf z (broadcastTo ⟨2, ![M, N]⟩ (shapeCast ⟨2, ![M, 1]⟩ (multiReduction .maximumf [1] ⟨1, ![M]⟩ z 0xFF800000#32 hr hφ hmax) hc) hb))
        (broadcastTo ⟨2, ![M, N]⟩ (log (shapeCast ⟨2, ![M, 1]⟩ (multiReduction .add [1] ⟨1, ![M]⟩
          (exp (subf z (broadcastTo ⟨2, ![M, N]⟩ (shapeCast ⟨2, ![M, 1]⟩ (multiReduction .maximumf [1] ⟨1, ![M]⟩ z 0xFF800000#32 hr hφ hmax) hc) hb)))
          0x00000000#32 hr hφ hadd) hc)) hb) (ix2 p q)
      = logSoftmaxRow (fun k : Fin N => z (ix2 p k)) q := by
  -- the shifted array at an entry of row p
  have hs : ∀ k : Fin N, subf z (broadcastTo ⟨2, ![M, N]⟩ (shapeCast ⟨2, ![M, 1]⟩ (multiReduction .maximumf [1] ⟨1, ![M]⟩ z 0xFF800000#32 hr hφ hmax) hc) hb) (ix2 p k)
      = z (ix2 p k) - rowMax (fun k : Fin N => z (ix2 p k)) := fun k => by
    show z (ix2 p k) - broadcastTo ⟨2, ![M, N]⟩ (shapeCast ⟨2, ![M, 1]⟩ (multiReduction .maximumf [1] ⟨1, ![M]⟩ z 0xFF800000#32 hr hφ hmax) hc) hb (ix2 p k) = _
    rw [Cert.LibRows.colBroadcastTo_apply, laneMax_apply]
  generalize subf z (broadcastTo ⟨2, ![M, N]⟩ (shapeCast ⟨2, ![M, 1]⟩ (multiReduction .maximumf [1] ⟨1, ![M]⟩ z 0xFF800000#32 hr hφ hmax) hc) hb) = s at hs ⊢
  show s (ix2 p q) - broadcastTo ⟨2, ![M, N]⟩ (shapeCast ⟨2, ![M, 1]⟩ (log (multiReduction .add [1] ⟨1, ![M]⟩ (exp s) 0x00000000#32 hr hφ hadd)) hc) hb (ix2 p q) = _
  rw [Cert.LibRows.colBroadcastTo_apply, hs]
  show _ - Ideal.log (multiReduction .add [1] ⟨1, ![M]⟩ (exp s) 0x00000000#32 hr hφ hadd (ix1 p)) = _
  rw [laneSum_apply]
  unfold logSoftmaxRow
  refine congrArg (fun t => _ - Ideal.log t) (Finset.sum_congr rfl fun k _ => ?_)
  show Ideal.exp (s (ix2 p k)) = _
  rw [hs]

/-- A host maximum along axis 1, from −∞, at row `p` is the row's maximum. -/
theorem hostMax_apply {M N : Nat} (z : FVec Ideal ⟨2, ![M, N]⟩ .f32) (hr' : (⟨2, ![M, N]⟩ : Shape).ReducesTo [1] ⟨1, ![M]⟩)
    (hr : (⟨2, ![M, N]⟩ : Shape).Reduces [1] ⟨1, ![M]⟩) (hu : 0 < (⟨0, ![]⟩ : Shape).numel) (p : Fin M) :
    Host.reduce (FloatOps.maximumf (F := Ideal) (φ := .f32)) z (constant (F := Ideal) ⟨0, ![]⟩ .f32 0xFF800000#32) hr' hu (ix1 p)
      = rowMax (fun k : Fin N => z (ix2 p k)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single _ z _ hr' hr hu (ix1 p)]
  have e : (z ∘ hr.lift (ix1 p)) = fun k : Fin N => z (ix2 p k) := funext fun k => congrArg z (Cert.LibRows.lift_axis1 hr p k)
  rw [e]; rfl

/-- THE HOST'S SPELLING at entry `(p, q)` is the log-softmax of row `p`. -/
theorem host_apply {M N : Nat} (z : FVec Ideal ⟨2, ![M, N]⟩ .f32) (hr' : (⟨2, ![M, N]⟩ : Shape).ReducesTo [1] ⟨1, ![M]⟩)
    (hr : (⟨2, ![M, N]⟩ : Shape).Reduces [1] ⟨1, ![M]⟩) (hu : 0 < (⟨0, ![]⟩ : Shape).numel)
    (hs0 : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, N]⟩ ![0, 1])
    (p : Fin M) (q : Fin N) :
    subf (subf z (broadcastInDim ⟨2, ![M, N]⟩ ![0, 1] h2 (broadcastInDim ⟨2, ![M, 1]⟩ ![0] h1
            (maximumf (broadcastInDim ⟨1, ![M]⟩ ![] hs0 (constant (F := Ideal) ⟨0, ![]⟩ .f32 0xFF800000#32))
              (Host.reduce (FloatOps.maximumf (F := Ideal) (φ := .f32)) z (constant (F := Ideal) ⟨0, ![]⟩ .f32 0xFF800000#32) hr' hu)))))
        (broadcastInDim ⟨2, ![M, N]⟩ ![0, 1] h2 (Host.log (broadcastInDim ⟨2, ![M, 1]⟩ ![0] h1
          (Host.reduceAdd (Host.exp (subf z (broadcastInDim ⟨2, ![M, N]⟩ ![0, 1] h2 (broadcastInDim ⟨2, ![M, 1]⟩ ![0] h1
            (maximumf (broadcastInDim ⟨1, ![M]⟩ ![] hs0 (constant (F := Ideal) ⟨0, ![]⟩ .f32 0xFF800000#32))
              (Host.reduce (FloatOps.maximumf (F := Ideal) (φ := .f32)) z (constant (F := Ideal) ⟨0, ![]⟩ .f32 0xFF800000#32) hr' hu))))))
            (constant (F := Ideal) ⟨0, ![]⟩ .f32 0x00000000#32) hr' hu)))) (ix2 p q)
      = logSoftmaxRow (fun k : Fin N => z (ix2 p k)) q := by
  have hm : ∀ r : Fin M, maximumf (broadcastInDim ⟨1, ![M]⟩ ![] hs0 (constant (F := Ideal) ⟨0, ![]⟩ .f32 0xFF800000#32))
      (Host.reduce (FloatOps.maximumf (F := Ideal) (φ := .f32)) z (constant (F := Ideal) ⟨0, ![]⟩ .f32 0xFF800000#32) hr' hu) (ix1 r)
      = rowMax (fun k : Fin N => z (ix2 r k)) := fun r => by
    show max (broadcastInDim ⟨1, ![M]⟩ ![] hs0 (constant (F := Ideal) ⟨0, ![]⟩ .f32 0xFF800000#32) (ix1 r)) _ = _
    rw [Cert.LibRows.splatInDim_apply, hostMax_apply z hr' hr hu r]
    exact max_bot_rowMax _
  generalize maximumf (broadcastInDim ⟨1, ![M]⟩ ![] hs0 (constant (F := Ideal) ⟨0, ![]⟩ .f32 0xFF800000#32))
      (Host.reduce (FloatOps.maximumf (F := Ideal) (φ := .f32)) z (constant (F := Ideal) ⟨0, ![]⟩ .f32 0xFF800000#32) hr' hu) = mx at hm ⊢
  have hs : ∀ k : Fin N, subf z (broadcastInDim ⟨2, ![M, N]⟩ ![0, 1] h2 (broadcastInDim ⟨2, ![M, 1]⟩ ![0] h1 mx)) (ix2 p k)
      = z (ix2 p k) - rowMax (fun k : Fin N => z (ix2 p k)) := fun k => by
    show z (ix2 p k) - broadcastInDim ⟨2, ![M, N]⟩ ![0, 1] h2 (broadcastInDim ⟨2, ![M, 1]⟩ ![0] h1 mx) (ix2 p k) = _
    rw [Cert.LibRows.colBroadcastInDim_apply, hm]
  generalize subf z (broadcastInDim ⟨2, ![M, N]⟩ ![0, 1] h2 (broadcastInDim ⟨2, ![M, 1]⟩ ![0] h1 mx)) = s at hs ⊢
  show s (ix2 p q) - broadcastInDim ⟨2, ![M, N]⟩ ![0, 1] h2 (broadcastInDim ⟨2, ![M, 1]⟩ ![0] h1
      (fun j => Ideal.log (Host.reduceAdd (Host.exp s) (constant (F := Ideal) ⟨0, ![]⟩ .f32 0x00000000#32) hr' hu j))) (ix2 p q) = _
  rw [Cert.LibRows.colBroadcastInDim_apply, hs]
  show _ - Ideal.log (Ideal.hostReduceAdd hr' (Host.exp s) (Ideal.ofBits .f32 0x00000000#32) (ix1 p)) = _
  rw [Ideal.hostReduceAdd_single hr' hr, Ideal.ofBits_zero_f32, zero_add]
  unfold logSoftmaxRow
  refine congrArg (fun t => _ - Ideal.log t) (Finset.sum_congr rfl fun k _ => ?_)
  show Ideal.exp (s (hr.lift (ix1 p) k)) = _
  rw [Cert.LibRows.lift_axis1 hr p k]
  exact congrArg Ideal.exp (hs _)

end Cert.LibLogSoftmax

end
-- ==== Proof.Spec.lean ====
/-
  The dense stages of a two-layer graph convolution with a log-softmax head, as functions of whole arrays of extended reals,
  entry by entry. Between them sit the graph's gather / scale / scatter-add stretches, which both programs spell alike and
  which are never opened.

  * `dense1 x w`   — entry (r, j) is  ∑ k, x (r, k) · w (k, j):  the first projection of every node's 64 features to 128.
  * `dense2 a b w` — entry (r, j) is  ∑ k, max (a (r, k) + b k) 0 · w (k, j):  bias, rectifier and the second projection (128 to 3).
  * `head a b`     — entry (r, j) is  z j − M − log ∑ k, exp (z k − M)  with  z k = a (r, k) + b k  and  M  the largest of
                      z 0, z 1, z 2 (and −∞, the value a maximum over nothing starts from): the log-softmax of row r after the bias.

  Each entry depends on ONE row of the first operand and on the whole of the small operands; that is what makes a tiling by
  blocks of rows compute the same array.
-/
import Idealize.ShloMosaic.Lib.ValueIdx
import Idealize.ShloMosaic.PureOps.Ideal
import proofs.«172793_j37443524886863_1_alg».proof.Proof.LibLogSoftmax

noncomputable section

open scoped BigOperators

namespace Cert.Gcn

open Idealize.ShloMosaic Idealize.ShloMosaic.ValueIdx Cert.LibLogSoftmax

/-- The entry in the row of `i` and column `k`. -/
abbrev inRow {M N K : Nat} (i : (⟨2, ![M, N]⟩ : Shape).Idx) (k : Fin K) : (⟨2, ![M, K]⟩ : Shape).Idx :=
  ix2 (⟨(i 0).val, idx2_lt0 i⟩ : Fin M) k

/-- The entry in row `k` and the column of `i`. -/
abbrev inCol {M N K : Nat} (k : Fin K) (i : (⟨2, ![M, N]⟩ : Shape).Idx) : (⟨2, ![K, N]⟩ : Shape).Idx :=
  ix2 k (⟨(i 1).val, idx2_lt1 i⟩ : Fin N)

/-- The first projection: every row of `x` times `w`. -/
def dense1 (x : FVec Ideal ⟨2, ![50000, 64]⟩ .f32) (w : FVec Ideal ⟨2, ![64, 128]⟩ .f32) : FVec Ideal ⟨2, ![50000, 128]⟩ .f32 :=
  fun i => ∑ k : Fin 64, x (inRow i k) * w (inCol k i)

/-- Bias, rectifier, second projection: every row of `max (a + b) 0` times `w`. -/
def dense2 (a : FVec Ideal ⟨2, ![50000, 128]⟩ .f32) (b : FVec Ideal ⟨1, ![128]⟩ .f32) (w : FVec Ideal ⟨2, ![128, 3]⟩ .f32) :
    FVec Ideal ⟨2, ![50000, 3]⟩ .f32 :=
  fun i => ∑ k : Fin 128, max (a (inRow i k) + b (ix1 k)) (Ideal.ofBits .f32 0x00000000#32) * w (inCol k i)

/-- The head: the log-softmax of every row of `a + b`. -/
def head (a : FVec Ideal ⟨2, ![50000, 3]⟩ .f32) (b : FVec Ideal ⟨1, ![3]⟩ .f32) : FVec Ideal ⟨2, ![50000, 3]⟩ .f32 :=
  fun i => logSoftmaxRow (fun k => a (inRow i k) + b (ix1 k)) (⟨(i 1).val, idx2_lt1 i⟩ : Fin 3)

end Cert.Gcn

end
-- ==== Proof.Bodies.lean ====
/-
  What each of the three kernel bodies stores, read at one entry of its block, at the exact values.

  A block of rows goes in; the small operands (a weight matrix, a bias vector) go in whole. The first body stores the block's
  rows times the weights; the second adds the bias along every row, takes the maximum with zero and multiplies by the second
  weights; the third adds the bias and takes the log-softmax of every row. A change of float format is the identity on the
  extended reals, and a matrix product accumulated into zero is the plain sum of products.
-/
import proofs.«172793_j37443524886863_1_alg».proof.Proof.Gen.KernelIdeal.Skeleton
import proofs.«172793_j37443524886863_1_alg».proof.Proof.Spec
import proofs.«172793_j37443524886863_1_alg».proof.Proof.LibMatmul
import proofs.«172793_j37443524886863_1_alg».proof.Proof.LibRows
import proofs.«172793_j37443524886863_1_alg».proof.Proof.LibLogSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Cert.KernelIdeal Cert.KernelIdeal.Gen Idealize.ShloMosaic Idealize.ShloMosaic.ValueIdx Cert.LibLogSoftmax

/-- The first body: entry (p, q) of the stored block is row p of the block of x times column q of w. -/
theorem proj1_block (x0 : Vec Ideal S2000x64 .f32) (x1 : Vec Ideal S64x128 .f32) (p : Fin 2000) (q : Fin 128) :
    k0_pay1 (F := Ideal) x0 x1 (ix2 p q) = ∑ k : Fin 64, x0 (ix2 p k) * x1 (ix2 k q) := by
  unfold k0_pay1
  exact Cert.LibMatmul.matmul_plain_zero_apply (M := 2000) (K := 64) (N := 128) none
    (truncf .bf16 x0 bitsLt_bf16_f32) (truncf .bf16 x1 bitsLt_bf16_f32) p q

/-- The second body: entry (p, q) is the sum over k of max (a (p, k) + b k) 0 times w (k, q). -/
theorem proj2_block (x0 : Vec Ideal S5000x128 .f32) (x1 : Vec Ideal S128 .f32) (x2 : Vec Ideal S128x3 .f32) (p : Fin 5000) (q : Fin 3) :
    k1_pay1 (F := Ideal) x0 x1 x2 (ix2 p q)
      = ∑ k : Fin 128, max (x0 (ix2 p k) + x1 (ix1 k)) (Ideal.ofBits .f32 0x00000000#32) * x2 (ix2 k q) := by
  unfold k1_pay1
  refine (Cert.LibMatmul.matmul_plain_zero_apply (M := 5000) (K := 128) (N := 3) none _ _ p q).trans ?_
  refine Finset.sum_congr rfl fun k _ => ?_
  show max (shapeCast S5000x128 x0 shapeCasts_S5000x128_S5000x128 (ix2 p k)
      + broadcastTo S5000x128 (shapeCast S1x128 x1 shapeCasts_S128_S1x128) broadcasts_S1x128_S5000x128 (ix2 p k))
      (Ideal.ofBits .f32 0x00000000#32) * x2 (ix2 k q) = _
  rw [shapeCast_self, Cert.LibRows.rowBroadcastTo_apply]

/-- The third body: entry (p, q) is the log-softmax, at q, of row p of the block after the bias. -/
theorem head_block (x0 : Vec Ideal S5000x3 .f32) (x1 : Vec Ideal S3 .f32) (p : Fin 5000) (q : Fin 3) :
    k2_pay1 (F := Ideal) x0 x1 (ix2 p q) = logSoftmaxRow (fun k : Fin 3 => x0 (ix2 p k) + x1 (ix1 k)) q := by
  unfold k2_pay1
  have hz : ∀ k : Fin 3, addf (F := Ideal) (φ := .f32) (shapeCast S5000x3 x0 shapeCasts_S5000x3_S5000x3)
      (broadcastTo S5000x3 (shapeCast S1x3 x1 shapeCasts_S3_S1x3) broadcasts_S1x3_S5000x3) (ix2 p k) = x0 (ix2 p k) + x1 (ix1 k) := fun k => by
    show shapeCast S5000x3 x0 shapeCasts_S5000x3_S5000x3 (ix2 p k)
      + broadcastTo S5000x3 (shapeCast S1x3 x1 shapeCasts_S3_S1x3) broadcasts_S1x3_S5000x3 (ix2 p k) = _
    rw [shapeCast_self, Cert.LibRows.rowBroadcastTo_apply]
  refine (kernel_apply (M := 5000) (N := 3) (addf (F := Ideal) (φ := .f32) (shapeCast S5000x3 x0 shapeCasts_S5000x3_S5000x3)
      (broadcastTo S5000x3 (shapeCast S1x3 x1 shapeCasts_S3_S1x3) broadcasts_S1x3_S5000x3))
      reduces_S5000x3_S5000 shapeCasts_S5000_S5000x1 broadcasts_S5000x1_S5000x3 (.inl rfl) rfl rfl p q).trans ?_
  exact congrArg (fun z => logSoftmaxRow z q) (funext hz)

end Cert.KernelIdeal.Bodies

end
-- ==== Proof.Region0.lean ====
/-
  The first pallas_call, as one function of whole arrays: whatever the buffers hold when the call is entered, the result array
  ends holding `dense1` of the node features and the first weights.

  The grid has 25 points; point t fetches rows 2000·t … 2000·t + 1999 of the features (all 64 columns), the whole weight
  matrix, and writes back rows 2000·t … 2000·t + 1999 of the result (all 128 columns). An entry of the result depends only on
  its own row of the features, so what point t writes back IS block t of `dense1`; and the 25 blocks cover the 50000 rows.
-/
import proofs.«172793_j37443524886863_1_alg».proof.Proof.Gen.KernelIdeal.Frame
import proofs.«172793_j37443524886863_1_alg».proof.Proof.Bodies
import proofs.«172793_j37443524886863_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gcn Cert.LibLogSoftmax

-- the buffers' contents when the call is entered: every statement below holds at any such contents
variable (V : (c : Dev nD) → (b : Ref sig .tc) → Buf (Elt Ideal) ((c : Thread nD τ).loc b))

theorem hz2 : (![0, 0] : Fin 2 → Nat) = fun _ => 0 := funext fun a => by fin_cases a <;> rfl

/-- Where each window's block sits at point `t`: the feature and result blocks at block-row `t`, the weights whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `dense1` of the arrays as the call finds them. -/
theorem flushed_eq (c : Dev nD) (t : Fin cfg0.N) :
    (dat0 V c).flushed 2 t = ((cfg0.win 2).blk t).view.read (Elt Ideal) (dense1 (V c main_arg0) (V c main_arg2)) := by
  show (cfg0.win 2).cut (grid0.coords t) ((dat0 V c).after 2 t) = _
  rw [after0_2]
  unfold out0_2
  rw [View.canon_unit_zero hz2]
  simp only [View.ld_unit_zero (S := S2000x64) hz2, View.ld_unit_zero (S := S64x128) hz2]
  obtain ⟨e00, e01, e10, e11, e20, e21⟩ := idx_facts t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = dense1 (V c main_arg0) (V c main_arg2) (((cfg0.win 2).blk t).view.emb (ix2 p q))
  refine (Bodies.proj1_block _ _ p q).trans ?_
  unfold dense1
  refine Finset.sum_congr rfl fun k _ => ?_
  have h0 : ((cfg0.win 0).blk t).view.emb (ix2 p k) = inRow (((cfg0.win 2).blk t).view.emb (ix2 p q)) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 64 + 1 * k.val = k.val; omega
  have h1 : ((cfg0.win 1).blk t).view.emb (ix2 k q) = inCol k (((cfg0.win 2).blk t).view.emb (ix2 p q)) := by
    funext a; apply Fin.ext
    match a with
    | ⟨0, _⟩ => show win0_1.index t (0 : Fin 2) * 64 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_arg0 : S50000x64.Idx → EReal) h0)
    (congrArg (V c main_arg2 : S64x128.Idx → EReal) h1)

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every row is in some point's block: row r in that of point r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e00, e01, e10, e11, e20, e21⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE RESULT ARRAY after the call: `dense1` of the features and the weights as the call found them. -/
theorem final (c : Dev nD) : (dat0 V c).arrAt 2 cfg0.N = dense1 (V c main_arg0) (V c main_arg2) :=
  (dat0 V c).arrAt_eq_of_cover 2 (dense1 (V c main_arg0) (V c main_arg2)) (fun t _ => flushed_eq V c t) (cover)

end Cert.KernelIdeal.Region0

end
-- ==== Proof.Region1.lean ====
/-
  The second pallas_call, as one function of whole arrays: whatever the buffers hold when the call is entered, the result array
  ends holding `dense2` of the aggregated first layer, the first bias and the second weights.

  The grid has 10 points; point t fetches rows 5000·t … 5000·t + 4999 of the aggregated layer (all 128 columns), the whole bias
  vector and the whole weight matrix, and writes back the same rows of the result (all 3 columns). An entry of the result depends
  only on its own row of the first operand, so what point t writes back IS block t of `dense2`; the 10 blocks cover the 50000 rows.
-/
import proofs.«172793_j37443524886863_1_alg».proof.Proof.Gen.KernelIdeal.Frame
import proofs.«172793_j37443524886863_1_alg».proof.Proof.Bodies
import proofs.«172793_j37443524886863_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gcn Cert.LibLogSoftmax

-- the buffers' contents when the call is entered: every statement below holds at any such contents
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at point `t`: the layer and result blocks at block-row `t`, the bias and the weights whole. -/
theorem idx_facts : ∀ t : Fin cfg1.N,
    win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `dense2` of the arrays as the call finds them. -/
theorem flushed_eq (c : Dev nD) (t : Fin cfg1.N) :
    (dat1 V c).flushed 3 t
      = ((cfg1.win 3).blk t).view.read (Elt Ideal) (dense2 (V c main_v43) (V c main_arg3) (V c main_arg4)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1, View.ld_unit_zero (S := S128x3) hz2]
  obtain ⟨e00, e01, e10, e20, e21, e30, e31⟩ := idx_facts t
  funext j
  obtain ⟨p, q, rfl⟩ : ∃ (p : Fin 5000) (q : Fin 3), j = ix2 p q := ⟨j 0, j 1, eq_ix2 j⟩
  show k1_pay1 (iblk1 V c 0 t) (iblk1 V c 1 t) (iblk1 V c 2 t) (ix2 p q)
    = dense2 (V c main_v43) (V c main_arg3) (V c main_arg4) (((cfg1.win 3).blk t).view.emb (ix2 p q))
  refine (Bodies.proj2_block _ _ _ p q).trans ?_
  unfold dense2
  refine Finset.sum_congr rfl fun k _ => ?_
  have h0 : ((cfg1.win 0).blk t).view.emb (ix2 p k) = inRow (((cfg1.win 3).blk t).view.emb (ix2 p q)) k := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hb : ((cfg1.win 1).blk t).view.emb (ix1 k) = ix1 k := by
    funext a; apply Fin.ext
    match a with
    | ⟨0, _⟩ => show win1_1.index t (0 : Fin 1) * 128 + 1 * k.val = k.val; omega
  have h2 : ((cfg1.win 2).blk t).view.emb (ix2 k q) = inCol k (((cfg1.win 3).blk t).view.emb (ix2 p q)) := by
    funext a; apply Fin.ext
    match a with
    | ⟨0, _⟩ => show win1_2.index t (0 : Fin 2) * 128 + 1 * k.val = k.val; omega
    | ⟨1, _⟩ => show win1_2.index t (1 : Fin 2) * 3 + 1 * q.val = win1_3.index t (1 : Fin 2) * 3 + 1 * q.val; omega
  exact congrArg₂ (fun a b : EReal => a * b)
    (congrArg (fun s : EReal => max s (Ideal.ofBits .f32 0x00000000#32))
      (congrArg₂ (fun a b : EReal => a + b) (congrArg (V c main_v43 : S50000x128.Idx → EReal) h0)
        (congrArg (V c main_arg3 : S128.Idx → EReal) hb)))
    (congrArg (V c main_arg4 : S128x3.Idx → EReal) h2)

/-- An index of the result array is in point `t`'s block iff each coordinate is in the block's range on its axis. -/
theorem mem_blk (t : Fin cfg1.N) (i : S50000x3.Idx) :
    i ∈ ((cfg1.win 3).blk t).view.set ↔ ∀ a : Fin 2, win1_3.index t a * S5000x3.size a ≤ (i a).val ∧ (i a).val < win1_3.index t a * S5000x3.size a + S5000x3.size a := by
  show i ∈ ((View.whole main_v44).slice (win1_3.rect t)).set ↔ _
  rw [View.set_slice_whole, Rect.mem_set_unit]
  exact Iff.rfl

/-- Every row is in some point's block: row r in that of point r / 5000. -/
theorem cover (i : S50000x3.Idx) : ∃ t : Fin cfg1.N, (cfg1.win 3).flush t = true ∧ i ∈ ((cfg1.win 3).blk t).view.set := by
  have hi0 : (i 0).val < 50000 := (i 0).isLt
  have hi1 : (i 1).val < 3 := (i 1).isLt
  have hN : cfg1.N = 10 := N_1
  let t : Fin cfg1.N := ⟨(i 0).val / 5000, by rw [hN]; omega⟩
  obtain ⟨e00, e01, e10, e20, e21, e30, e31⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 3 ≤ (i 1).val ∧ (i 1).val < win1_3.index t (1 : Fin 2) * 3 + 3; omega

/-- THE RESULT ARRAY after the call: `dense2` of the aggregated layer, the bias and the weights as the call found them. -/
theorem final (c : Dev nD) : (dat1 V c).arrAt 3 cfg1.N = dense2 (V c main_v43) (V c main_arg3) (V c main_arg4) :=
  (dat1 V c).arrAt_eq_of_cover 3 (dense2 (V c main_v43) (V c main_arg3) (V c main_arg4)) (fun t _ => flushed_eq V c t) (cover)

end Cert.KernelIdeal.Region1

end
-- ==== Proof.Region2.lean ====
/-
  The third pallas_call, as one function of whole arrays: whatever the buffers hold when the call is entered, the result array
  ends holding `head` — the row-wise log-softmax after the bias — of the aggregated second layer and the second bias.

  The grid has 10 points; point t fetches rows 5000·t … 5000·t + 4999 of the aggregated layer (all 3 columns) and the whole bias
  vector, and writes back the same rows of the result. The log-softmax of a row reads that row only, so what point t writes back
  IS block t of `head`; the 10 blocks cover the 50000 rows.
-/
import proofs.«172793_j37443524886863_1_alg».proof.Proof.Gen.KernelIdeal.Frame
import proofs.«172793_j37443524886863_1_alg».proof.Proof.Bodies
import proofs.«172793_j37443524886863_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Gcn Cert.LibLogSoftmax

-- the buffers' contents when the call is entered: every statement below holds at any such contents
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Where each window's block sits at point `t`: the layer and result blocks at block-row `t`, the bias whole. -/
theorem idx_facts : ∀ t : Fin cfg2.N,
    win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point `t` writes back is block `t` of `head` of the arrays as the call finds them. -/
theorem flushed_eq (c : Dev nD) (t : Fin cfg2.N) :
    (dat2 V c).flushed 2 t = ((cfg2.win 2).blk t).view.read (Elt Ideal) (head (V c main_v57) (V c main_arg5)) := by
  show (cfg2.win 2).cut (grid2.coords t) ((dat2 V c).after 2 t) = _
  rw [after2_2]
  unfold out2_2
  rw [View.canon_unit_zero hz2]
  simp only [View.ld_unit_zero (S := S5000x3) hz2, View.ld_unit_zero (S := S3) hz1]
  obtain ⟨e00, e01, e10, e20, e21⟩ := idx_facts t
  funext j
  obtain ⟨p, q, rfl⟩ : ∃ (p : Fin 5000) (q : Fin 3), j = ix2 p q := ⟨j 0, j 1, eq_ix2 j⟩
  show k2_pay1 (iblk2 V c 0 t) (iblk2 V c 1 t) (ix2 p q)
    = head (V c main_v57) (V c main_arg5) (((cfg2.win 2).blk t).view.emb (ix2 p q))
  refine (Bodies.head_block _ _ p q).trans ?_
  unfold head
  have hq : (⟨((((cfg2.win 2).blk t).view.emb (ix2 p q)) 1).val, idx2_lt1 _⟩ : Fin 3) = q :=
    Fin.ext (by show win2_2.index t (1 : Fin 2) * 3 + 1 * q.val = q.val; omega)
  rw [hq]
  refine congrArg (fun z => logSoftmaxRow z q) (funext fun k => ?_)
  have h0 : ((cfg2.win 0).blk t).view.emb (ix2 p k) = inRow (((cfg2.win 2).blk t).view.emb (ix2 p q)) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 3 + 1 * k.val = k.val; omega
  have hb : ((cfg2.win 1).blk t).view.emb (ix1 k) = ix1 k := by
    funext a; apply Fin.ext
    match a with
    | ⟨0, _⟩ => show win2_1.index t (0 : Fin 1) * 3 + 1 * k.val = k.val; omega
  exact congrArg₂ (fun a b : EReal => a + b) (congrArg (V c main_v57 : S50000x3.Idx → EReal) h0)
    (congrArg (V c main_arg5 : S3.Idx → EReal) hb)

/-- An index of the result array is in point `t`'s block iff each coordinate is in the block's range on its axis. -/
theorem mem_blk (t : Fin cfg2.N) (i : S50000x3.Idx) :
    i ∈ ((cfg2.win 2).blk t).view.set ↔ ∀ a : Fin 2, win2_2.index t a * S5000x3.size a ≤ (i a).val ∧ (i a).val < win2_2.index t a * S5000x3.size a + S5000x3.size a := by
  show i ∈ ((View.whole main_v58).slice (win2_2.rect t)).set ↔ _
  rw [View.set_slice_whole, Rect.mem_set_unit]
  exact Iff.rfl

/-- Every row is in some point's block: row r in that of point r / 5000. -/
theorem cover (i : S50000x3.Idx) : ∃ t : Fin cfg2.N, (cfg2.win 2).flush t = true ∧ i ∈ ((cfg2.win 2).blk t).view.set := by
  have hi0 : (i 0).val < 50000 := (i 0).isLt
  have hi1 : (i 1).val < 3 := (i 1).isLt
  have hN : cfg2.N = 10 := N_2
  let t : Fin cfg2.N := ⟨(i 0).val / 5000, by rw [hN]; omega⟩
  obtain ⟨e00, e01, e10, e20, e21⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 3 ≤ (i 1).val ∧ (i 1).val < win2_2.index t (1 : Fin 2) * 3 + 3; omega

/-- THE RESULT ARRAY after the call: `head` of the aggregated second layer and the second bias as the call found them. -/
theorem final (c : Dev nD) : (dat2 V c).arrAt 2 cfg2.N = head (V c main_v57) (V c main_arg5) :=
  (dat2 V c).arrAt_eq_of_cover 2 (head (V c main_v57) (V c main_arg5)) (fun t _ => flushed_eq V c t) (cover)

end Cert.KernelIdeal.Region2

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.KernelValue.lean ====
/-
  What the kernel program's result array holds after the run, as ONE function of the six arguments: reading the contents at the
  last segment boundary back through the fold.

  At the exit of the third pallas_call the result's buffer holds `head` of the two arrays that call was entered with (its blocks
  tile the array). The first of them the third stretch of host lines computed — `spread3` of the graph's three vectors and the
  second call's result —; that result is `dense2` of what the second call was entered with; and so on down to the launch memory.
  The graph's three vectors (sources, targets, edge weights) are computed once, before the first call, and no later line or
  call writes them; the arguments are never written.
-/
import proofs.«172793_j37443524886863_1_alg».proof.Proof.Gen.KernelIdeal.Frame
import proofs.«172793_j37443524886863_1_alg».proof.Proof.Graph
import proofs.«172793_j37443524886863_1_alg».proof.Proof.Region0
import proofs.«172793_j37443524886863_1_alg».proof.Proof.Region1
import proofs.«172793_j37443524886863_1_alg».proof.Proof.Region2
import proofs.«172793_j37443524886863_1_alg».proof.Proof.LibHostCalls
import Idealize.ShloMosaic.Lib.StableHlo.Run

set_option maxRecDepth 16384

noncomputable section

namespace Cert.KernelIdeal.Fold

open Cert.KernelIdeal Cert.KernelIdeal.Gen Cert.KernelIdeal.Graph Cert.Gcn
open Idealize.ShloMosaic Idealize.ShloMosaic.TcCoe Idealize.SL.Sem Idealize.ShloMosaic.StableHlo

/-! ## The stretches of host lines, each from any contents `W` -/

section Stretches

variable {F : FTy → Type} [FloatOps F] (W : Valuation τ sig (Elt F))

/-- The lines before the first call, at the sources' buffer: the edge list's row 0 and the self loops. -/
theorem pre_row : after hostOps0_2 (after hostOps0_1 (after hostOps0 W)) (Proc.devRef .tc main_v3)
    = rowIdx (W (Proc.devRef .tc main_arg1)) := by
  after_results_simp
  rfl

/-- … at the targets' buffer. -/
theorem pre_col : after hostOps0_2 (after hostOps0_1 (after hostOps0 W)) (Proc.devRef .tc main_v6)
    = colIdx (W (Proc.devRef .tc main_arg1)) := by
  after_results_simp
  rfl

set_option maxRecDepth 131072 in
set_option maxHeartbeats 4000000 in
/-- … at the edge weights' buffer. -/
theorem pre_wgt : after hostOps0_2 (after hostOps0_1 (after hostOps0 W)) (Proc.devRef .tc main_v29)
    = edgeWeight (F := F) (rowIdx (W (Proc.devRef .tc main_arg1))) (colIdx (W (Proc.devRef .tc main_arg1))) := by
  after_results_simp
  simp only [Cert.LibHostCalls.ofBuf_toBuf]
  rfl

/-- They write no argument. -/
theorem pre_arg0 : after hostOps0_2 (after hostOps0_1 (after hostOps0 W)) (Proc.devRef .tc main_arg0) = W (Proc.devRef .tc main_arg0) := by
  after_results_simp
theorem pre_arg2 : after hostOps0_2 (after hostOps0_1 (after hostOps0 W)) (Proc.devRef .tc main_arg2) = W (Proc.devRef .tc main_arg2) := by
  after_results_simp
theorem pre_arg3 : after hostOps0_2 (after hostOps0_1 (after hostOps0 W)) (Proc.devRef .tc main_arg3) = W (Proc.devRef .tc main_arg3) := by
  after_results_simp
theorem pre_arg4 : after hostOps0_2 (after hostOps0_1 (after hostOps0 W)) (Proc.devRef .tc main_arg4) = W (Proc.devRef .tc main_arg4) := by
  after_results_simp
theorem pre_arg5 : after hostOps0_2 (after hostOps0_1 (after hostOps0 W)) (Proc.devRef .tc main_arg5) = W (Proc.devRef .tc main_arg5) := by
  after_results_simp

/-- The lines between the first and the second call, at the second call's first operand. -/
theorem mid1 : after hostOps1 W (Proc.devRef .tc main_v43)
    = spread128 (F := F) (W (Proc.devRef .tc main_v3)) (W (Proc.devRef .tc main_v6)) (W (Proc.devRef .tc main_v29)) (W (Proc.devRef .tc main_v30)) := by
  after_results_simp
  rfl

/-- They keep the graph's vectors and the arguments. -/
theorem mid1_row : after hostOps1 W (Proc.devRef .tc main_v3) = W (Proc.devRef .tc main_v3) := by after_results_simp
theorem mid1_col : after hostOps1 W (Proc.devRef .tc main_v6) = W (Proc.devRef .tc main_v6) := by after_results_simp
theorem mid1_wgt : after hostOps1 W (Proc.devRef .tc main_v29) = W (Proc.devRef .tc main_v29) := by after_results_simp
theorem mid1_arg3 : after hostOps1 W (Proc.devRef .tc main_arg3) = W (Proc.devRef .tc main_arg3) := by after_results_simp
theorem mid1_arg4 : after hostOps1 W (Proc.devRef .tc main_arg4) = W (Proc.devRef .tc main_arg4) := by after_results_simp
theorem mid1_arg5 : after hostOps1 W (Proc.devRef .tc main_arg5) = W (Proc.devRef .tc main_arg5) := by after_results_simp

/-- The lines between the second and the third call, at the third call's first operand. -/
theorem mid2 : after hostOps2 W (Proc.devRef .tc main_v57)
    = spread3 (F := F) (W (Proc.devRef .tc main_v3)) (W (Proc.devRef .tc main_v6)) (W (Proc.devRef .tc main_v29)) (W (Proc.devRef .tc main_v44)) := by
  after_results_simp
  rfl

theorem mid2_arg5 : after hostOps2 W (Proc.devRef .tc main_arg5) = W (Proc.devRef .tc main_arg5) := by after_results_simp

end Stretches

/-! ## The fold, boundary by boundary -/

variable (m : (ℓ : Loc nD τ sig) → Buf (Elt Ideal) ℓ) (ρ : Dev nD → PrngReg)

/-- The edge list as launched. -/
abbrev edges (c : Dev nD) : IVec S2x800000 32 := m ((c.tc : Thread nD τ).loc main_arg1)

/-- At the first call's entry: the graph's vectors are those of the launched edge list, the arguments as launched. -/
theorem W3_row (c : Dev nD) : W3 m ρ c (Proc.devRef .tc main_v3) = rowIdx (edges m c) := pre_row (W0 m ρ c)
theorem W3_col (c : Dev nD) : W3 m ρ c (Proc.devRef .tc main_v6) = colIdx (edges m c) := pre_col (W0 m ρ c)
theorem W3_wgt (c : Dev nD) : W3 m ρ c (Proc.devRef .tc main_v29) = edgeWeight (F := Ideal) (rowIdx (edges m c)) (colIdx (edges m c)) :=
  pre_wgt (W0 m ρ c)
theorem W3_arg0 (c : Dev nD) : W3 m ρ c (Proc.devRef .tc main_arg0) = m ((c.tc : Thread nD τ).loc main_arg0) := pre_arg0 (W0 m ρ c)
theorem W3_arg2 (c : Dev nD) : W3 m ρ c (Proc.devRef .tc main_arg2) = m ((c.tc : Thread nD τ).loc main_arg2) := pre_arg2 (W0 m ρ c)
theorem W3_arg3 (c : Dev nD) : W3 m ρ c (Proc.devRef .tc main_arg3) = m ((c.tc : Thread nD τ).loc main_arg3) := pre_arg3 (W0 m ρ c)
theorem W3_arg4 (c : Dev nD) : W3 m ρ c (Proc.devRef .tc main_arg4) = m ((c.tc : Thread nD τ).loc main_arg4) := pre_arg4 (W0 m ρ c)
theorem W3_arg5 (c : Dev nD) : W3 m ρ c (Proc.devRef .tc main_arg5) = m ((c.tc : Thread nD τ).loc main_arg5) := pre_arg5 (W0 m ρ c)

/-- At the first call's exit: its result array is the first projection; the call writes nothing else that is read later. -/
theorem W4_out (c : Dev nD) : W4 m ρ c (Proc.devRef .tc main_v30)
    = dense1 (m ((c.tc : Thread nD τ).loc main_arg0)) (m ((c.tc : Thread nD τ).loc main_arg2)) := by
  refine (W4_arr m ρ c 2).trans ((Region0.final (V3 m ρ) c).trans ?_)
  show dense1 (W3 m ρ c (Proc.devRef .tc main_arg0)) (W3 m ρ c (Proc.devRef .tc main_arg2)) = _
  rw [W3_arg0, W3_arg2]
theorem W4_row (c : Dev nD) : W4 m ρ c (Proc.devRef .tc main_v3) = rowIdx (edges m c) :=
  (W4_of_ne m ρ c main_v3 (by decide)).trans (W3_row m ρ c)
theorem W4_col (c : Dev nD) : W4 m ρ c (Proc.devRef .tc main_v6) = colIdx (edges m c) :=
  (W4_of_ne m ρ c main_v6 (by decide)).trans (W3_col m ρ c)
theorem W4_wgt (c : Dev nD) : W4 m ρ c (Proc.devRef .tc main_v29) = edgeWeight (F := Ideal) (rowIdx (edges m c)) (colIdx (edges m c)) :=
  (W4_of_ne m ρ c main_v29 (by decide)).trans (W3_wgt m ρ c)
theorem W4_arg3 (c : Dev nD) : W4 m ρ c (Proc.devRef .tc main_arg3) = m ((c.tc : Thread nD τ).loc main_arg3) :=
  (W4_of_ne m ρ c main_arg3 (by decide)).trans (W3_arg3 m ρ c)
theorem W4_arg4 (c : Dev nD) : W4 m ρ c (Proc.devRef .tc main_arg4) = m ((c.tc : Thread nD τ).loc main_arg4) :=
  (W4_of_ne m ρ c main_arg4 (by decide)).trans (W3_arg4 m ρ c)
theorem W4_arg5 (c : Dev nD) : W4 m ρ c (Proc.devRef .tc main_arg5) = m ((c.tc : Thread nD τ).loc main_arg5) :=
  (W4_of_ne m ρ c main_arg5 (by decide)).trans (W3_arg5 m ρ c)

/-- The first layer, aggregated over the graph: what the second call is entered with. -/
abbrev layer1 (c : Dev nD) : FVec Ideal S50000x128 .f32 :=
  spread128 (F := Ideal) (rowIdx (edges m c)) (colIdx (edges m c)) (edgeWeight (F := Ideal) (rowIdx (edges m c)) (colIdx (edges m c)))
    (dense1 (m ((c.tc : Thread nD τ).loc main_arg0)) (m ((c.tc : Thread nD τ).loc main_arg2)))

theorem W5_in (c : Dev nD) : W5 m ρ c (Proc.devRef .tc main_v43) = layer1 m c := by
  refine (mid1 (W4 m ρ c)).trans ?_
  rw [W4_row, W4_col, W4_wgt, W4_out]
theorem W5_row (c : Dev nD) : W5 m ρ c (Proc.devRef .tc main_v3) = rowIdx (edges m c) := (mid1_row (W4 m ρ c)).trans (W4_row m ρ c)
theorem W5_col (c : Dev nD) : W5 m ρ c (Proc.devRef .tc main_v6) = colIdx (edges m c) := (mid1_col (W4 m ρ c)).trans (W4_col m ρ c)
theorem W5_wgt (c : Dev nD) : W5 m ρ c (Proc.devRef .tc main_v29) = edgeWeight (F := Ideal) (rowIdx (edges m c)) (colIdx (edges m c)) :=
  (mid1_wgt (W4 m ρ c)).trans (W4_wgt m ρ c)
theorem W5_arg3 (c : Dev nD) : W5 m ρ c (Proc.devRef .tc main_arg3) = m ((c.tc : Thread nD τ).loc main_arg3) := (mid1_arg3 (W4 m ρ c)).trans (W4_arg3 m ρ c)
theorem W5_arg4 (c : Dev nD) : W5 m ρ c (Proc.devRef .tc main_arg4) = m ((c.tc : Thread nD τ).loc main_arg4) := (mid1_arg4 (W4 m ρ c)).trans (W4_arg4 m ρ c)
theorem W5_arg5 (c : Dev nD) : W5 m ρ c (Proc.devRef .tc main_arg5) = m ((c.tc : Thread nD τ).loc main_arg5) := (mid1_arg5 (W4 m ρ c)).trans (W4_arg5 m ρ c)

/-- At the second call's exit: its result array is the second projection of the aggregated first layer. -/
theorem W6_out (c : Dev nD) : W6 m ρ c (Proc.devRef .tc main_v44)
    = dense2 (layer1 m c) (m ((c.tc : Thread nD τ).loc main_arg3)) (m ((c.tc : Thread nD τ).loc main_arg4)) := by
  refine (W6_arr m ρ c 3).trans ((Region1.final (V5 m ρ) c).trans ?_)
  show dense2 (W5 m ρ c (Proc.devRef .tc main_v43)) (W5 m ρ c (Proc.devRef .tc main_arg3)) (W5 m ρ c (Proc.devRef .tc main_arg4)) = _
  rw [W5_in, W5_arg3, W5_arg4]
theorem W6_row (c : Dev nD) : W6 m ρ c (Proc.devRef .tc main_v3) = rowIdx (edges m c) :=
  (W6_of_ne m ρ c main_v3 (by decide)).trans (W5_row m ρ c)
theorem W6_col (c : Dev nD) : W6 m ρ c (Proc.devRef .tc main_v6) = colIdx (edges m c) :=
  (W6_of_ne m ρ c main_v6 (by decide)).trans (W5_col m ρ c)
theorem W6_wgt (c : Dev nD) : W6 m ρ c (Proc.devRef .tc main_v29) = edgeWeight (F := Ideal) (rowIdx (edges m c)) (colIdx (edges m c)) :=
  (W6_of_ne m ρ c main_v29 (by decide)).trans (W5_wgt m ρ c)
theorem W6_arg5 (c : Dev nD) : W6 m ρ c (Proc.devRef .tc main_arg5) = m ((c.tc : Thread nD τ).loc main_arg5) :=
  (W6_of_ne m ρ c main_arg5 (by decide)).trans (W5_arg5 m ρ c)

/-- The second layer, aggregated over the graph: what the third call is entered with. -/
abbrev layer2 (c : Dev nD) : FVec Ideal S50000x3 .f32 :=
  spread3 (F := Ideal) (rowIdx (edges m c)) (colIdx (edges m c)) (edgeWeight (F := Ideal) (rowIdx (edges m c)) (colIdx (edges m c)))
    (dense2 (layer1 m c) (m ((c.tc : Thread nD τ).loc main_arg3)) (m ((c.tc : Thread nD τ).loc main_arg4)))

theorem W7_in (c : Dev nD) : W7 m ρ c (Proc.devRef .tc main_v57) = layer2 m c := by
  refine (mid2 (W6 m ρ c)).trans ?_
  rw [W6_row, W6_col, W6_wgt, W6_out]
theorem W7_arg5 (c : Dev nD) : W7 m ρ c (Proc.devRef .tc main_arg5) = m ((c.tc : Thread nD τ).loc main_arg5) := (mid2_arg5 (W6 m ρ c)).trans (W6_arg5 m ρ c)

/-- THE RESULT: at the last boundary the result's buffer holds the log-softmax head of the aggregated second layer. -/
theorem W8_out (c : Dev nD) : W8 m ρ c (Proc.devRef .tc main_v58) = head (layer2 m c) (m ((c.tc : Thread nD τ).loc main_arg5)) := by
  refine (W8_arr m ρ c 2).trans ((Region2.final (V7 m ρ) c).trans ?_)
  show head (W7 m ρ c (Proc.devRef .tc main_v57)) (W7 m ρ c (Proc.devRef .tc main_arg5)) = _
  rw [W7_in, W7_arg5]

end Cert.KernelIdeal.Fold

end
-- ==== Proof.RefValue.lean ====
/-
  The reference program's run, read back: from any memory, every weakly fair execution of its @main ends with the result array
  at ONE named function of the six arguments (`refOut`) and the arguments as launched.

  The reference is 98 host lines. Its result is stated in layers, with the graph's functions carried by name (sources, targets,
  edge weights, the two spread-and-sum stretches: the same names the kernel program's host lines are read with):

      refOut x e w1 b1 w2 b2 = logSoftmaxRows (spread3 … ((max (spread128 … (x · w1) + b1) 0) · w2) + b2)

  where `·` is the host's matrix product, `+ b` adds a bias vector along every row, and `logSoftmaxRows` is the host's spelling of
  the row-wise log-softmax. The run is the library's straight-line run of the operation list; each buffer's final contents are the
  fold of the operations' results, read back in one pass once the typed references of the inlined callees (whose contents go to a
  buffer's own type and back) are removed.
-/
import proofs.«172793_j37443524886863_1_alg».proof.Proof.RefOpsP
import proofs.«172793_j37443524886863_1_alg».proof.Proof.Graph
import proofs.«172793_j37443524886863_1_alg».proof.Proof.LibHostCalls
import Idealize.ShloMosaic.Lib.StableHlo.Run

noncomputable section

namespace Cert.ReferenceIdeal.RefValue

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

/-- A bias of 128 entries added along every row. -/
def addBias128 (a : FVec F S50000x128 .f32) (b : FVec F S128 .f32) : FVec F S50000x128 .f32 :=
  addf a (broadcastInDim S50000x128 ![0, 1] bcast_S1x128_S50000x128_0_1 (broadcastInDim S1x128 ![1] bcast_S128_S1x128_1 b))

/-- A bias of 3 entries added along every row. -/
def addBias3 (a : FVec F S50000x3 .f32) (b : FVec F S3 .f32) : FVec F S50000x3 .f32 :=
  addf a (broadcastInDim S50000x3 ![0, 1] bcast_S1x3_S50000x3_0_1 (broadcastInDim S1x3 ![1] bcast_S3_S1x3_1 b))

/-- The maximum with zero, entry by entry. -/
def relu (a : FVec F S50000x128 .f32) : FVec F S50000x128 .f32 :=
  maximumf a (broadcastInDim S50000x128 ![] bcast_S_S50000x128 (constant S_ .f32 0x00000000#32))

/-- Every row's maximum, from −∞ and compared once more with −∞, as the host spells it. -/
def rowMaxima (z : FVec F S50000x3 .f32) : FVec F S50000 .f32 :=
  maximumf (broadcastInDim S50000 ![] bcast_S_S50000 (constant S_ .f32 0xFF800000#32))
    (Host.reduce FloatOps.maximumf z (constant S_ .f32 0xFF800000#32) reducesTo_S50000x3_S50000_d1 h_S_)

/-- Every row shifted by its maximum. -/
def shifted (z : FVec F S50000x3 .f32) : FVec F S50000x3 .f32 :=
  subf z (broadcastInDim S50000x3 ![0, 1] bcast_S50000x1_S50000x3_0_1 (broadcastInDim S50000x1 ![0] bcast_S50000_S50000x1_0 (rowMaxima z)))

/-- The host's row-wise log-softmax: the shifted rows minus the log of the sum of their exponentials. -/
def logSoftmaxRows (z : FVec F S50000x3 .f32) : FVec F S50000x3 .f32 :=
  subf (shifted z) (broadcastInDim S50000x3 ![0, 1] bcast_S50000x1_S50000x3_0_1 (Host.log (broadcastInDim S50000x1 ![0] bcast_S50000_S50000x1_0
    (Host.reduceAdd (Host.exp (shifted z)) (constant S_ .f32 0x00000000#32) reducesTo_S50000x3_S50000_d1 h_S_))))

/-- The first layer before its bias: the first projection, aggregated over the graph. -/
def refLayer1 (x : FVec F S50000x64 .f32) (e : IVec S2x800000 32) (w1 : FVec F S64x128 .f32) : FVec F S50000x128 .f32 :=
  Cert.KernelIdeal.Graph.spread128 (F := F) (Cert.KernelIdeal.Graph.rowIdx e) (Cert.KernelIdeal.Graph.colIdx e)
    (Cert.KernelIdeal.Graph.edgeWeight (F := F) (Cert.KernelIdeal.Graph.rowIdx e) (Cert.KernelIdeal.Graph.colIdx e))
    (Host.dotGeneral dot_S50000x64_S64x128_S50000x128_1_0_0_1_n_n none x w1)

/-- The second layer before its bias: bias, rectifier, second projection, aggregated over the graph. -/
def refLayer2 (x : FVec F S50000x64 .f32) (e : IVec S2x800000 32) (w1 : FVec F S64x128 .f32) (b1 : FVec F S128 .f32)
    (w2 : FVec F S128x3 .f32) : FVec F S50000x3 .f32 :=
  Cert.KernelIdeal.Graph.spread3 (F := F) (Cert.KernelIdeal.Graph.rowIdx e) (Cert.KernelIdeal.Graph.colIdx e)
    (Cert.KernelIdeal.Graph.edgeWeight (F := F) (Cert.KernelIdeal.Graph.rowIdx e) (Cert.KernelIdeal.Graph.colIdx e))
    (Host.dotGeneral dot_S50000x128_S128x3_S50000x3_1_0_0_1_n_n none (relu (addBias128 (refLayer1 x e w1) b1)) w2)

/-- The reference's result as a function of its six arguments. -/
def refOut (x : FVec F S50000x64 .f32) (e : IVec S2x800000 32) (w1 : FVec F S64x128 .f32) (b1 : FVec F S128 .f32)
    (w2 : FVec F S128x3 .f32) (b2 : FVec F S3 .f32) : FVec F S50000x3 .f32 :=
  logSoftmaxRows (addBias3 (refLayer2 x e w1 b1 w2) b2)

set_option maxRecDepth 131072 in
set_option maxHeartbeats 39200000 in
/-- The fold of the 98 operations over the launch contents, at the result's buffer, is `refOut` of the launched arguments. -/
theorem result_after (m : (ℓ : Loc nD τ sig) → Buf (Elt F) ℓ) (c : Dev nD) :
    after (ops (F := F)) (launchContents m c) (Proc.devRef .tc main_v65)
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  after_results_simp
  simp only [Cert.LibHostCalls.ofBuf_toBuf]
  rfl

set_option maxRecDepth 131072 in
set_option maxHeartbeats 39200000 in
/-- On every device, from any memory with zero counters: every weakly fair execution of @main terminates with the result at
    `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_after m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.RefBridge.lean ====
/-
  The reference's layers are the specification's, at the exact values: its host matrix products are `dense1` and (after bias and
  rectifier) `dense2`, and its host log-softmax after the bias is `head` — each read at one entry.

  A host matrix product of M × K by K × N at (a, b) is the sum over c of the products; a bias placed along axis 1 of a one-row
  array and then down every row reads the bias at the column; zero placed everywhere reads zero; and the host's log-softmax of
  a row is the row shifted by its maximum minus the log of the sum of the exponentials.
-/
import proofs.«172793_j37443524886863_1_alg».proof.Proof.RefValue
import proofs.«172793_j37443524886863_1_alg».proof.Proof.Spec
import proofs.«172793_j37443524886863_1_alg».proof.Proof.LibRows
import proofs.«172793_j37443524886863_1_alg».proof.Proof.LibLogSoftmax
import Idealize.ShloMosaic.Lib.ValueIdx
import Idealize.ShloMosaic.PureOps.Ideal.Laws

noncomputable section

open scoped BigOperators

namespace Cert.ReferenceIdeal.RefBridge

open Cert.ReferenceIdeal Cert.ReferenceIdeal.Gen Cert.ReferenceIdeal.RefValue Cert.Gcn Cert.LibLogSoftmax
open Idealize.ShloMosaic Idealize.ShloMosaic.ValueIdx

/-- The host's first matrix product is the first projection. -/
theorem dot1_eq (x : FVec Ideal S50000x64 .f32) (w : FVec Ideal S64x128 .f32) :
    Host.dotGeneral dot_S50000x64_S64x128_S50000x128_1_0_0_1_n_n none x w = dense1 x w := by
  funext i
  obtain ⟨a, b, rfl⟩ : ∃ (a : Fin 50000) (b : Fin 128), i = ix2 a b := ⟨i 0, i 1, eq_ix2 i⟩
  exact Cert.LibRows.dotGeneral_plain_apply (M := 50000) (K := 64) (N := 128) none .single x w a b

/-- Bias, rectifier and the host's second matrix product are the second projection. -/
theorem dot2_eq (a : FVec Ideal S50000x128 .f32) (b1 : FVec Ideal S128 .f32) (w : FVec Ideal S128x3 .f32) :
    Host.dotGeneral dot_S50000x128_S128x3_S50000x3_1_0_0_1_n_n none (relu (addBias128 a b1)) w = dense2 a b1 w := by
  funext i
  obtain ⟨p, q, rfl⟩ : ∃ (p : Fin 50000) (q : Fin 3), i = ix2 p q := ⟨i 0, i 1, eq_ix2 i⟩
  refine (Cert.LibRows.dotGeneral_plain_apply (M := 50000) (K := 128) (N := 3) none .single (relu (addBias128 a b1)) w p q).trans ?_
  unfold dense2
  refine Finset.sum_congr rfl fun k _ => ?_
  show max (a (ix2 p k) + broadcastInDim S50000x128 ![0, 1] bcast_S1x128_S50000x128_0_1 (broadcastInDim S1x128 ![1] bcast_S128_S1x128_1 b1) (ix2 p k))
      (broadcastInDim S50000x128 ![] bcast_S_S50000x128 (constant (F := Ideal) S_ .f32 0x00000000#32) (ix2 p k)) * w (ix2 k q) = _
  rw [Cert.LibRows.rowBroadcastInDim_apply, Cert.LibRows.splatInDim_apply]
  rfl

/-- The host's log-softmax after the bias is the head. -/
theorem head_eq (a : FVec Ideal S50000x3 .f32) (b2 : FVec Ideal S3 .f32) : logSoftmaxRows (addBias3 a b2) = head a b2 := by
  funext i
  obtain ⟨p, q, rfl⟩ : ∃ (p : Fin 50000) (q : Fin 3), i = ix2 p q := ⟨i 0, i 1, eq_ix2 i⟩
  refine (host_apply (M := 50000) (N := 3) (addBias3 a b2) reducesTo_S50000x3_S50000_d1 (by decide) h_S_ bcast_S_S50000
    bcast_S50000_S50000x1_0 bcast_S50000x1_S50000x3_0_1 p q).trans ?_
  unfold head
  refine congrArg (fun z => logSoftmaxRow z q) (funext fun k => ?_)
  show a (ix2 p k) + broadcastInDim S50000x3 ![0, 1] bcast_S1x3_S50000x3_0_1 (broadcastInDim S1x3 ![1] bcast_S3_S1x3_1 b2) (ix2 p k) = _
  rw [Cert.LibRows.rowBroadcastInDim_apply]

/-- THE REFERENCE'S RESULT in the specification's words: the head of the second layer aggregated over the graph, the second
    layer the second projection of the first layer aggregated over the graph, the first layer the first projection. -/
theorem refOut_eq (x : FVec Ideal S50000x64 .f32) (e : IVec S2x800000 32) (w1 : FVec Ideal S64x128 .f32) (b1 : FVec Ideal S128 .f32)
    (w2 : FVec Ideal S128x3 .f32) (b2 : FVec Ideal S3 .f32) :
    refOut x e w1 b1 w2 b2
      = head (Cert.KernelIdeal.Graph.spread3 (F := Ideal) (Cert.KernelIdeal.Graph.rowIdx e) (Cert.KernelIdeal.Graph.colIdx e)
          (Cert.KernelIdeal.Graph.edgeWeight (F := Ideal) (Cert.KernelIdeal.Graph.rowIdx e) (Cert.KernelIdeal.Graph.colIdx e))
          (dense2 (Cert.KernelIdeal.Graph.spread128 (F := Ideal) (Cert.KernelIdeal.Graph.rowIdx e) (Cert.KernelIdeal.Graph.colIdx e)
            (Cert.KernelIdeal.Graph.edgeWeight (F := Ideal) (Cert.KernelIdeal.Graph.rowIdx e) (Cert.KernelIdeal.Graph.colIdx e))
            (dense1 x w1)) b1 w2)) b2 := by
  unfold refOut refLayer2 refLayer1
  rw [head_eq, dot2_eq, dot1_eq]

end Cert.ReferenceIdeal.RefBridge

end
-- ==== Proof.lean ====
/-
  A two-layer graph convolution with a log-softmax head: the kernel program against its reference, at the exact values.

  Both programs compute, for 50000 nodes with 64 features and 850000 edges (800000 given, one self loop per node),

      out = logSoftmaxRows (Â (max (Â (x · W1) + b1) 0 · W2) + b2),

  where Â aggregates rows over the graph: every edge takes the row of its source scaled by the product of the inverse root degrees
  of its two ends, and every node sums the rows arriving. The kernel program computes the three dense stages — x · W1;
  max (· + b1) 0 · W2; the log-softmax of (· + b2) — in three pallas_calls, each over blocks of rows, and the graph stretches in
  host lines between them; the reference computes everything in host lines. Every entry of a dense stage depends on one row of
  its first operand only, so the blocks of rows assemble to the same arrays (Region0/1/2 over Bodies and Spec); the host lines of
  the graph stretches are the same functions in both programs and are carried by name (Graph); a change of float format is the
  identity on the extended reals, a matrix product accumulated into zero is the plain sum of products, a lane reduction and a host
  reduction of a row are the same maximum or sum, and a maximum taken from −∞ is unchanged by one more comparison with −∞. No law
  used needs the inputs finite, so the precondition is never opened.

  The three frames: the two kernel programs' are the generated frame certificates; the reference's is its run with the result
  dropped. The ideal pass rewrote nothing, so `preserves` is `True`.
-/
import proofs.«172793_j37443524886863_1_alg».proof.Defs
import proofs.«172793_j37443524886863_1_alg».proof.Proof.Gen.Kernel
import proofs.«172793_j37443524886863_1_alg».proof.Proof.Gen.Kernel.Skeleton
import proofs.«172793_j37443524886863_1_alg».proof.Proof.Gen.Kernel.Launch
import proofs.«172793_j37443524886863_1_alg».proof.Proof.Gen.Kernel.Points
import proofs.«172793_j37443524886863_1_alg».proof.Proof.Gen.Kernel.Frame
import proofs.«172793_j37443524886863_1_alg».proof.Proof.Gen.KernelIdeal
import proofs.«172793_j37443524886863_1_alg».proof.Proof.Gen.KernelIdeal.Skeleton
import proofs.«172793_j37443524886863_1_alg».proof.Proof.Gen.KernelIdeal.Launch
import proofs.«172793_j37443524886863_1_alg».proof.Proof.Gen.KernelIdeal.Points
import proofs.«172793_j37443524886863_1_alg».proof.Proof.Gen.KernelIdeal.Frame
import proofs.«172793_j37443524886863_1_alg».proof.Proof.Gen.ReferenceIdeal
import proofs.«172793_j37443524886863_1_alg».proof.Proof.Gen.Pre_finite_inputs
import proofs.«172793_j37443524886863_1_alg».proof.Proof.KernelRun
import proofs.«172793_j37443524886863_1_alg».proof.Proof.KernelValue
import proofs.«172793_j37443524886863_1_alg».proof.Proof.RefValue
import proofs.«172793_j37443524886863_1_alg».proof.Proof.RefBridge
import Idealize.ShloMosaic.Adequacy
import Idealize.ShloMosaic.Init

noncomputable section

namespace Cert.Proof

open Idealize.ShloMosaic Idealize.SL.Sem

/-- The word-level kernel program runs, faults nowhere and leaves its arguments: the generated frame certificate. -/
theorem frame_kernel : Cert.frame_Kernel := fun m ρ _ => Cert.Kernel.Gen.frame m ρ

/-- The same for the idealized kernel program. -/
theorem frame_kernelIdeal : Cert.frame_KernelIdeal := fun m ρ _ => Cert.KernelIdeal.Gen.frame m ρ

/-- The reference runs and leaves its arguments: its run, the result dropped. -/
theorem frame_reference : Cert.frame_ReferenceIdeal := fun m ρ _ =>
  (θ_run Cert.ReferenceIdeal.defs _ _).mono (fun _ h c => (h c).2) (Cert.ReferenceIdeal.RefValue.run (F := Ideal) m ρ)

/-- At the exact values both programs end with the head of the second layer aggregated over the graph: the kernel program by
    its run read back through the three pallas_calls, the reference by its run read back and its layers recognised. -/
theorem algebraic : Cert.algebraic_KernelIdeal_ReferenceIdeal := by
  intro m ρ m' ρ' _ hagree
  refine ⟨fun c => Cert.Gcn.head (Cert.KernelIdeal.Fold.layer2 m c) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.KernelIdeal.Fold.W8_out m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]
    exact Cert.ReferenceIdeal.RefBridge.refOut_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
